-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S800000 32) (main_arg2 : IVec S800000 32) (main_arg3 : FVec F S1x256 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x128 : Shape := ⟨2, ![100000, 128]⟩
abbrev S800000 : Shape := ⟨1, ![800000]⟩
abbrev S1x256 : Shape := ⟨2, ![1, 256]⟩
abbrev S1 : Shape := ⟨1, ![1]⟩
abbrev S1x128 : Shape := ⟨2, ![1, 128]⟩
abbrev S100000x2 : Shape := ⟨2, ![100000, 2]⟩
abbrev S5000x128 : Shape := ⟨2, ![5000, 128]⟩
abbrev S5000x2 : Shape := ⟨2, ![5000, 2]⟩
abbrev S5000 : Shape := ⟨1, ![5000]⟩
abbrev S5000x1 : Shape := ⟨2, ![5000, 1]⟩
abbrev S100000x1 : Shape := ⟨2, ![100000, 1]⟩
abbrev S100000 : Shape := ⟨1, ![100000]⟩
abbrev S_ : Shape := ⟨0, ![]⟩
abbrev S800000x1 : Shape := ⟨2, ![800000, 1]⟩
abbrev S6250x128 : Shape := ⟨2, ![6250, 128]⟩
abbrev S6250 : Shape := ⟨1, ![6250]⟩
abbrev S6250x1 : Shape := ⟨2, ![6250, 1]⟩
abbrev S1x1 : Shape := ⟨2, ![1, 1]⟩

abbrev nBuf : Space → Nat
  | .hbm => 37
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S1x256, .f32⟩
  | .hbm, ⟨4, _⟩ => ⟨S1, .f32⟩
  | .hbm, ⟨5, _⟩ => ⟨S1x128, .f32⟩
  | .hbm, ⟨6, _⟩ => ⟨S1x128, .f32⟩
  | .hbm, ⟨7, _⟩ => ⟨S100000x2, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .f32⟩
  | .hbm, ⟨32, _⟩ => ⟨S800000, .f32⟩
  | .hbm, ⟨33, _⟩ => ⟨S800000, .f32⟩
  | .hbm, ⟨34, _⟩ => ⟨S6250x128, .f32⟩
  | .hbm, ⟨35, _⟩ => ⟨S6250x128, .f32⟩
  | .hbm, ⟨36, _⟩ => ⟨S800000x1, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S5000x2, .f32⟩
  | .local _ .vmem, ⟨5, _⟩ => ⟨S5000x2, .f32⟩
  | .local _ .vmem, ⟨6, _⟩ => ⟨S6250x128, .f32⟩
  | .local _ .vmem, ⟨7, _⟩ => ⟨S6250x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S6250x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S6250x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  slices_S1x256_S1x128_0_0 : S1x256.Slices ![0, 0] S1x128
  slices_S1x256_S1x128_0_128 : S1x256.Slices ![0, 128] S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x2_S5000x1_0_0 : ∀ a, (![0, 0] : Fin 2 → Nat) a + S5000x1.size a ≤ S5000x2.size a
  h_S5000x1 : 0 < S5000x1.numel
  inb_S5000x2_S5000x1_0_1 : ∀ a, (![0, 1] : Fin 2 → Nat) a + S5000x1.size a ≤ S5000x2.size a
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S800000 : S_.BroadcastsInDim S800000 (![] : Fin 0 → Fin S800000.rank)
  bcast_S800000_S800000x1_0 : S800000.BroadcastsInDim S800000x1 (![0] : Fin 1 → Fin S800000x1.rank)
  shapeCasts_S1_S_ : S1.ShapeCasts S_
  shapeCasts_S800000_S6250x128 : S800000.ShapeCasts S6250x128
  inb_S6250x128_S6250x128_0_0 : ∀ a, (![0, 0] : Fin 2 → Nat) a + S6250x128.size a ≤ S6250x128.size a
  h_S6250x128 : 0 < S6250x128.numel
  shapeCasts_S6250x128_S6250x128 : S6250x128.ShapeCasts S6250x128
  reduces_S6250x128_S6250 : S6250x128.Reduces [1] S6250
  shapeCasts_S6250_S6250x1 : S6250.ShapeCasts S6250x1
  reduces_S6250x1_S1 : S6250x1.Reduces [0] S1
  shapeCasts_S1_S1x1 : S1.ShapeCasts S1x1
  broadcasts_S1x1_S6250x128 : S1x1.Broadcasts S6250x128
  shapeCasts_S6250x128_S800000x1 : S6250x128.ShapeCasts S800000x1
  gather_S100000_S800000x1_S800000_n_0_n_n_0_1_1_wf : GatherDims.WF S100000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x2.size a ≤ S100000x2.size a
  hwx0_3 : ∀ i : grid0.Coords, EltTy.bits .f32 = 32 ∨ (Rect.block (s := S100000x2) S5000x2.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S6250x128.size a ≤ S6250x128.size a
  hwx1_0 : ∀ i : grid1.Coords, EltTy.bits .f32 = 32 ∨ (Rect.block (s := S6250x128) S6250x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6250x128.size a ≤ S6250x128.size a
  hwx1_1 : ∀ i : grid1.Coords, EltTy.bits .f32 = 32 ∨ (Rect.block (s := S6250x128) S6250x128.size (cc1_transform_1 i) (hinb1_1 i)).WholeWords (EltTy.packing .f32)

variable [Facts₀]

def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S6250x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v26) S6250x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S1x256 : Shape := ⟨2, ![1, 256]⟩
abbrev S1 : Shape := ⟨1, ![1]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S128x1 : Shape := ⟨2, ![128, 1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S1x256, .f32⟩
  | .hbm, ⟨4, _⟩ => ⟨S1, .f32⟩
  | .hbm, ⟨5, _⟩ => ⟨S1x128, .f32⟩
  | .hbm, ⟨6, _⟩ => ⟨S1x128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S128x1, .f32⟩
  | .hbm, ⟨17, _⟩ => ⟨S800000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S128x1, .f32⟩
  | .hbm, ⟨28, _⟩ => ⟨S800000x1, .f32⟩
  | .hbm, ⟨29, _⟩ => ⟨S800000x1, .f32⟩
  | .hbm, ⟨30, _⟩ => ⟨S1x1, .f32⟩
  | .hbm, ⟨31, _⟩ => ⟨S800000x1, .f32⟩
  | .hbm, ⟨32, _⟩ => ⟨S800000x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S800000x1, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S1x256_S1x128_0_0 : S1x256.Slices ![0, 0] S1x128
  slices_S1x256_S1x128_0_128 : S1x256.Slices ![0, 128] S1x128
  bcast_S_S800000 : S_.BroadcastsInDim S800000 (![] : Fin 0 → Fin S800000.rank)
  bcast_S800000_S800000x1_0 : S800000.BroadcastsInDim S800000x1 (![0] : Fin 1 → Fin S800000x1.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S_d0_1 : S800000x1.ReducesTo [0, 1] S_
  h_S_ : 0 < S_.numel
  bcast_S_S800000x1 : S_.BroadcastsInDim S800000x1 (![] : Fin 0 → Fin S800000x1.rank)
  gather_S100000x128_S800000x1_S800000x128_1_0_n_n_0_1_1128_wf : GatherDims.WF S100000x128 S800000x1 S800000x128 [1] [0] [] [0] [] 1 ![1, 128]
  dot_S800000x128_S128x1_S800000x1_1_0_0_1_n_n_wf : DotDims.WF S800000x128 S128x1 S800000x1 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Spec.lean ====
/-
  The function both programs compute, stated once over the argument arrays.

  A graph has 100000 nodes, each with a feature row of 128 reals (`h`), and 800000 edges, each naming a source and a
  destination node by an index word (`a1`, `a2`).  A weight row `W` of 256 reals splits into a source half and a
  destination half; `b` is one bias.  The score of an edge is

      score e = (Σ_k h[src e, k] · W[k]) + (Σ_k h[dst e, k] · W[128 + k]) + b,

  and the result is the scores normalised by their least and greatest values over all edges,

      out e = (score e − lo) / (hi − lo),   lo = ⨅ e, score e,   hi = ⨆ e, score e,

  on the extended reals, with the quotient the ideal instance's `Ideal.div`.  An index word is read as jnp reads it: a
  negative word counts from the end (100000 is added), and the word, read signed, is clamped into the table.

  Also here: the two facts about least and greatest values used on both sides — a value with the universal property of
  the infimum (supremum) of a family is that infimum (supremum), and a fold of `min` (`max`) from the top (bottom)
  element has that property.
-/
import Idealize.ShloMosaic.PureOps.Ideal
import Idealize.ShloMosaic.Lib.ValueIdx

noncomputable section

open scoped BigOperators

namespace Cert.EdgeScore

open Idealize.ShloMosaic Idealize.ShloMosaic.ValueIdx

/-- The node table's index type, the edge lists', the weight row's, the bias's, the result's. -/
abbrev NodeRows : Shape := ⟨2, ![100000, 128]⟩
abbrev Edges : Shape := ⟨1, ![800000]⟩
abbrev WRow : Shape := ⟨2, ![1, 256]⟩
abbrev Bias : Shape := ⟨1, ![1]⟩
abbrev EdgeCol : Shape := ⟨2, ![800000, 1]⟩

/-- jnp's reading of a possibly negative index word: a negative one counts from the end of the 100000 nodes. -/
def wrap (x : BitVec 32) : BitVec 32 := Scalar.select (IntOp.cmpi .slt x 0#32) (IntOp.addi x 100000#32) x

/-- The node an index word names: the wrapped word read signed and clamped into `[0, 99999]`. -/
def node (x : BitVec 32) : Fin 100000 := ⟨min (wrap x).toInt.toNat 99999, by omega⟩

/-- A node's feature row against the source half of the weight row. -/
def su (h : NodeRows.Idx → EReal) (W : WRow.Idx → EReal) (n : Fin 100000) : EReal :=
  ∑ k : Fin 128, h (ix2 n k) * W (ix2 (0 : Fin 1) (⟨k.val, by omega⟩ : Fin 256))

/-- A node's feature row against the destination half of the weight row. -/
def sv (h : NodeRows.Idx → EReal) (W : WRow.Idx → EReal) (n : Fin 100000) : EReal :=
  ∑ k : Fin 128, h (ix2 n k) * W (ix2 (0 : Fin 1) (⟨128 + k.val, by omega⟩ : Fin 256))

/-- An edge's score. -/
def score (h : NodeRows.Idx → EReal) (a1 a2 : Edges.Idx → BitVec 32) (W : WRow.Idx → EReal) (b : Bias.Idx → EReal)
    (e : Fin 800000) : EReal :=
  su h W (node (a1 (ix1 e))) + sv h W (node (a2 (ix1 e))) + b (ix1 (0 : Fin 1))

/-- The least and the greatest score over all edges. -/
def lo (h : NodeRows.Idx → EReal) (a1 a2 : Edges.Idx → BitVec 32) (W : WRow.Idx → EReal) (b : Bias.Idx → EReal) : EReal :=
  ⨅ e : Fin 800000, score h a1 a2 W b e
def hi (h : NodeRows.Idx → EReal) (a1 a2 : Edges.Idx → BitVec 32) (W : WRow.Idx → EReal) (b : Bias.Idx → EReal) : EReal :=
  ⨆ e : Fin 800000, score h a1 a2 W b e

/-- THE RESULT: every edge's score normalised by the least and greatest scores. -/
def G (h : NodeRows.Idx → EReal) (a1 a2 : Edges.Idx → BitVec 32) (W : WRow.Idx → EReal) (b : Bias.Idx → EReal) :
    EdgeCol.Idx → EReal :=
  fun i => Ideal.div (score h a1 a2 W b ⟨(i 0).val, idx2_lt0 i⟩ - lo h a1 a2 W b) (hi h a1 a2 W b - lo h a1 a2 W b)

/-! ## Least and greatest values by their universal property -/

/-- A value below exactly the lower bounds of a family is the family's infimum. -/
theorem eq_iInf_of_le_iff {ι : Type} (f : ι → EReal) (M : EReal) (hM : ∀ c, c ≤ M ↔ ∀ i, c ≤ f i) : M = ⨅ i, f i :=
  le_antisymm (le_iInf ((hM M).mp le_rfl)) ((hM _).mpr fun i => iInf_le f i)

/-- A value above exactly the upper bounds of a family is the family's supremum. -/
theorem eq_iSup_of_le_iff {ι : Type} (f : ι → EReal) (M : EReal) (hM : ∀ c, M ≤ c ↔ ∀ i, f i ≤ c) : M = ⨆ i, f i :=
  le_antisymm ((hM _).mpr fun i => le_iSup f i) (iSup_le ((hM M).mp le_rfl))

/-- The f32 pattern of +∞ is the top extended real, that of −∞ the bottom one. -/
theorem ofBits_pinf : Ideal.ofBits .f32 0x7F800000#32 = (⊤ : EReal) := by simp [Ideal.ofBits, Ideal.ieee]
theorem ofBits_ninf : Ideal.ofBits .f32 0xFF800000#32 = (⊥ : EReal) := by simp [Ideal.ofBits, Ideal.ieee]

/-- A fold of `min` from the top element over a finite set: the lower bounds of the fold are the lower bounds of the
    folded values. -/
theorem le_fold_min_top {ι : Type} (s : Finset ι) (f : ι → EReal) (c : EReal) :
    c ≤ s.fold min ⊤ f ↔ ∀ i ∈ s, c ≤ f i := by
  rw [Finset.le_fold_min]; exact ⟨fun h => h.2, fun h => ⟨le_top, h⟩⟩

/-- A fold of `max` from the bottom element over a finite set: its upper bounds are those of the folded values. -/
theorem fold_max_bot_le {ι : Type} (s : Finset ι) (f : ι → EReal) (c : EReal) :
    s.fold max ⊥ f ≤ c ↔ ∀ i ∈ s, f i ≤ c := by
  rw [Finset.fold_max_le]; exact ⟨fun h => h.2, fun h => ⟨bot_le, h⟩⟩

end Cert.EdgeScore

end
-- ==== Proof.RefSide.lean ====
/-
  THE REFERENCE IS `G`.  The reference program, read one operation at a time at the ideal instance, computes the
  function `Cert.EdgeScore.G` of the specification: it wraps and clamps each edge's two index words into node numbers,
  gathers the two nodes' feature rows, multiplies the source row against the first half of the weight row and the
  destination row against the second half, adds the bias — that is the edge's score —, takes the least and the greatest
  score over all edges as folds of `min` from `+∞` and of `max` from `−∞`, and divides each score less the least by
  the greatest less the least.  Over the extended reals sums and products are commutative and associative and the
  lattice is complete, so no finiteness hypothesis is used.
-/
import proofs.«143666_j62491774157283_2_alg».proof.Proof.Gen.ReferenceIdeal.Read
import Idealize.ShloMosaic.Lib.ValueIdx
import Idealize.ShloMosaic.Lib.Pipeline.Value
import Idealize.ShloMosaic.PureOps.Ideal.Laws
import proofs.«143666_j62491774157283_2_alg».proof.Proof.Spec

noncomputable section

open scoped BigOperators

namespace Cert.ReferenceIdeal.RefSide

open Cert.ReferenceIdeal Cert.ReferenceIdeal.Gen Cert.ReferenceIdeal.Read Idealize.ShloMosaic Idealize.ShloMosaic.ValueIdx

/-! ## The row gather read at an index

The reference reads a node's feature row with a gather whose start indices are a column of index words: result element
`(e, k)` is the table's element `(n, k)`, where `n` is the `e`-th index word read signed and clamped into `[0, 99999]`
(the slice on axis 0 has size one, so the clamp's upper end is `100000 - 1`), and `k` is the offset coordinate on axis 1
(the slice there is the whole row, so its start is `0`). -/

theorem gather_row {α : Type} {w : Nat} (x : S100000x128.Idx → α) (idx : IVec S800000x1 w) (e : Fin 800000) (k : Fin 128) :
    Host.gather gather_S100000x128_S800000x1_S800000x128_1_0_n_n_0_1_1128 x idx (ix2 e k)
      = x (ix2 (⟨min (idx (ix2 e (0 : Fin 1))).toInt.toNat 99999, by omega⟩ : Fin 100000) k) := by
  unfold Host.gather
  congr 1
  funext a
  refine Fin.ext ?_
  match a with
  | ⟨0, _⟩ =>
    show gather_S100000x128_S800000x1_S800000x128_1_0_n_n_0_1_1128.start (ix2 e k) idx 0
        + gather_S100000x128_S800000x1_S800000x128_1_0_n_n_0_1_1128.batchCoord (ix2 e k) 0
        + gather_S100000x128_S800000x1_S800000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S800000x1_S800000x128_1_0_n_n_0_1_1128.startIndexMap from
      List.mem_singleton.mpr rfl)]
    have hsi : gather_S100000x128_S800000x1_S800000x128_1_0_n_n_0_1_1128.siIdx (ix2 e k)
        ⟨List.idxOf (0 : Fin 2) gather_S100000x128_S800000x1_S800000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x128_S800000x1_S800000x128_1_0_n_n_0_1_1128.start (ix2 e k) idx 1
        + gather_S100000x128_S800000x1_S800000x128_1_0_n_n_0_1_1128.batchCoord (ix2 e k) 1
        + gather_S100000x128_S800000x1_S800000x128_1_0_n_n_0_1_1128.offCoord (ix2 e k) 1 = k.val
    rw [GatherDims.batchCoord_eq_zero _ _ _ List.not_mem_nil]
    unfold GatherDims.start
    rw [dif_neg (show ¬ (1 : Fin 2) ∈ gather_S100000x128_S800000x1_S800000x128_1_0_n_n_0_1_1128.startIndexMap by decide)]
    unfold GatherDims.offCoord
    rw [dif_pos (show (1 : Fin 2) ∈ gather_S100000x128_S800000x1_S800000x128_1_0_n_n_0_1_1128.sKept by decide)]
    simp only [Nat.zero_add, Nat.add_zero]
    rfl

/-! ## The index words as the reference wraps them, and the two gathered row products -/

/-- The reference's wrapped source word is the specification's `wrap` of the word. -/
theorem v6_eq_wrap (x1 : (⟨S800000, .i32⟩ : BufTy).Contents (Elt Ideal)) (e : Fin 800000) :
    val_main_v6 (F := Ideal) x1 (ix1 e) = Cert.EdgeScore.wrap (x1 (ix1 e)) := by
  rw [val_main_v6_apply, val_main_v3_apply, val_main_v5_apply, val_main_v2_apply, val_main_v4_apply,
    val_main_c_apply, val_main_c_0_apply]
  rfl

/-- The reference's wrapped destination word is the specification's `wrap` of the word. -/
theorem v15_eq_wrap (x2 : (⟨S800000, .i32⟩ : BufTy).Contents (Elt Ideal)) (e : Fin 800000) :
    val_main_v15 (F := Ideal) x2 (ix1 e) = Cert.EdgeScore.wrap (x2 (ix1 e)) := by
  rw [val_main_v15_apply, val_main_v12_apply, val_main_v14_apply, val_main_v11_apply, val_main_v13_apply,
    val_main_c_1_apply, val_main_c_2_apply]
  rfl

/-- The gathered source rows: element `(e, k)` is the feature `k` of the node the `e`-th source word names. -/
theorem v8_apply (x0 : (⟨S100000x128, .f32⟩ : BufTy).Contents (Elt Ideal)) (x1 : (⟨S800000, .i32⟩ : BufTy).Contents (Elt Ideal))
    (e : Fin 800000) (k : Fin 128) :
    val_main_v8 (F := Ideal) x0 x1 (ix2 e k) = x0 (ix2 (Cert.EdgeScore.node (x1 (ix1 e))) k) := by
  have hi : idx_main_v7 (ix2 e (0 : Fin 1)) = ix1 e := by
    funext a; match a with | ⟨0, _⟩ => rfl
  have hw : val_main_v7 (F := Ideal) x1 (ix2 e (0 : Fin 1)) = Cert.EdgeScore.wrap (x1 (ix1 e)) := by
    rw [val_main_v7_apply, hi, v6_eq_wrap]
  unfold val_main_v8
  rw [gather_row]
  refine congrArg x0 (congrArg (fun n : Fin 100000 => ix2 n k) (Fin.ext ?_))
  show min (val_main_v7 (F := Ideal) x1 (ix2 e (0 : Fin 1))).toInt.toNat 99999 = min (Cert.EdgeScore.wrap (x1 (ix1 e))).toInt.toNat 99999
  rw [hw]

/-- The gathered destination rows: element `(e, k)` is the feature `k` of the node the `e`-th destination word names. -/
theorem v17_apply (x0 : (⟨S100000x128, .f32⟩ : BufTy).Contents (Elt Ideal)) (x2 : (⟨S800000, .i32⟩ : BufTy).Contents (Elt Ideal))
    (e : Fin 800000) (k : Fin 128) :
    val_main_v17 (F := Ideal) x0 x2 (ix2 e k) = x0 (ix2 (Cert.EdgeScore.node (x2 (ix1 e))) k) := by
  have hi : idx_main_v16 (ix2 e (0 : Fin 1)) = ix1 e := by
    funext a; match a with | ⟨0, _⟩ => rfl
  have hw : val_main_v16 (F := Ideal) x2 (ix2 e (0 : Fin 1)) = Cert.EdgeScore.wrap (x2 (ix1 e)) := by
    rw [val_main_v16_apply, hi, v15_eq_wrap]
  unfold val_main_v17
  rw [gather_row]
  refine congrArg x0 (congrArg (fun n : Fin 100000 => ix2 n k) (Fin.ext ?_))
  show min (val_main_v16 (F := Ideal) x2 (ix2 e (0 : Fin 1))).toInt.toNat 99999 = min (Cert.EdgeScore.wrap (x2 (ix1 e))).toInt.toNat 99999
  rw [hw]

/-! ## The score column -/

/-- The transposed source half of the weight row: element `(k, 0)` is weight `k`. -/
theorem v9_apply (x3 : (⟨S1x256, .f32⟩ : BufTy).Contents (Elt Ideal)) (k : Fin 128) :
    val_main_v9 (F := Ideal) x3 (ix2 k (0 : Fin 1)) = x3 (ix2 (0 : Fin 1) (⟨k.val, by omega⟩ : Fin 256)) := by
  rw [val_main_v9_apply, val_main_v0_apply]
  congr 1
  funext a; refine Fin.ext ?_
  match a with
  | ⟨0, _⟩ => rfl
  | ⟨1, _⟩ => rfl

/-- The transposed destination half of the weight row: element `(k, 0)` is weight `128 + k`. -/
theorem v18_apply (x3 : (⟨S1x256, .f32⟩ : BufTy).Contents (Elt Ideal)) (k : Fin 128) :
    val_main_v18 (F := Ideal) x3 (ix2 k (0 : Fin 1)) = x3 (ix2 (0 : Fin 1) (⟨128 + k.val, by omega⟩ : Fin 256)) := by
  rw [val_main_v18_apply, val_main_v1_apply]
  congr 1
  funext a; refine Fin.ext ?_
  match a with
  | ⟨0, _⟩ => rfl
  | ⟨1, _⟩ => rfl

/-- The first product column: an edge's source node against the source half of the weight row. -/
theorem v10_apply (x0 : (⟨S100000x128, .f32⟩ : BufTy).Contents (Elt Ideal)) (x1 : (⟨S800000, .i32⟩ : BufTy).Contents (Elt Ideal))
    (x3 : (⟨S1x256, .f32⟩ : BufTy).Contents (Elt Ideal)) (e : Fin 800000) :
    val_main_v10 (F := Ideal) x0 x1 x3 (ix2 e (0 : Fin 1)) = Cert.EdgeScore.su x0 x3 (Cert.EdgeScore.node (x1 (ix1 e))) := by
  rw [val_main_v10_apply]
  unfold Cert.EdgeScore.su
  refine Finset.sum_congr rfl fun k _ => ?_
  have hl : lidx_main_v10 (ix2 e (0 : Fin 1)) k = ix2 e k := by
    funext a; match a with | ⟨0, _⟩ => rfl | ⟨1, _⟩ => rfl
  have hr : ridx_main_v10 (ix2 e (0 : Fin 1)) k = ix2 k (0 : Fin 1) := by
    funext a; match a with | ⟨0, _⟩ => rfl | ⟨1, _⟩ => rfl
  rw [hl, hr, v8_apply, v9_apply]

/-- The second product column: an edge's destination node against the destination half of the weight row. -/
theorem v19_apply (x0 : (⟨S100000x128, .f32⟩ : BufTy).Contents (Elt Ideal)) (x2 : (⟨S800000, .i32⟩ : BufTy).Contents (Elt Ideal))
    (x3 : (⟨S1x256, .f32⟩ : BufTy).Contents (Elt Ideal)) (e : Fin 800000) :
    val_main_v19 (F := Ideal) x0 x2 x3 (ix2 e (0 : Fin 1)) = Cert.EdgeScore.sv x0 x3 (Cert.EdgeScore.node (x2 (ix1 e))) := by
  rw [val_main_v19_apply]
  unfold Cert.EdgeScore.sv
  refine Finset.sum_congr rfl fun k _ => ?_
  have hl : lidx_main_v19 (ix2 e (0 : Fin 1)) k = ix2 e k := by
    funext a; match a with | ⟨0, _⟩ => rfl | ⟨1, _⟩ => rfl
  have hr : ridx_main_v19 (ix2 e (0 : Fin 1)) k = ix2 k (0 : Fin 1) := by
    funext a; match a with | ⟨0, _⟩ => rfl | ⟨1, _⟩ => rfl
  rw [hl, hr, v17_apply, v18_apply]

/-- The broadcast bias column: every element is the one bias. -/
theorem v22_apply (x4 : (⟨S1, .f32⟩ : BufTy).Contents (Elt Ideal)) (i : S800000x1.Idx) :
    val_main_v22 (F := Ideal) x4 i = x4 (ix1 (0 : Fin 1)) := by
  rw [val_main_v22_apply, val_main_v21_apply]
  congr 1
  funext a; match a with | ⟨0, _⟩ => rfl

/-- THE SCORE COLUMN: element `(e, 0)` of the reference's sum of the two product columns and the bias column is the
    specification's score of edge `e`. -/
theorem v23_score (x0 : (⟨S100000x128, .f32⟩ : BufTy).Contents (Elt Ideal)) (x1 x2 : (⟨S800000, .i32⟩ : BufTy).Contents (Elt Ideal))
    (x3 : (⟨S1x256, .f32⟩ : BufTy).Contents (Elt Ideal)) (x4 : (⟨S1, .f32⟩ : BufTy).Contents (Elt Ideal)) (e : Fin 800000) :
    val_main_v23 (F := Ideal) x0 x1 x2 x3 x4 (ix2 e (0 : Fin 1)) = Cert.EdgeScore.score x0 x1 x2 x3 x4 e := by
  rw [val_main_v23_apply, val_main_v20_apply, v10_apply, v19_apply, v22_apply]
  rfl

/-- Every index of the score column is `(e, 0)` for an edge `e`: its second coordinate is `0`, there being one column. -/
theorem col_idx (i : S800000x1.Idx) : i = ix2 (⟨(i 0).val, idx2_lt0 i⟩ : Fin 800000) (0 : Fin 1) := by
  funext a; refine Fin.ext ?_
  match a with
  | ⟨0, _⟩ => rfl
  | ⟨1, _⟩ => have := idx2_lt1 i; show (i 1).val = 0; omega

/-- The score column at an arbitrary index. -/
theorem v23_score_idx (x0 : (⟨S100000x128, .f32⟩ : BufTy).Contents (Elt Ideal)) (x1 x2 : (⟨S800000, .i32⟩ : BufTy).Contents (Elt Ideal))
    (x3 : (⟨S1x256, .f32⟩ : BufTy).Contents (Elt Ideal)) (x4 : (⟨S1, .f32⟩ : BufTy).Contents (Elt Ideal)) (i : S800000x1.Idx) :
    val_main_v23 (F := Ideal) x0 x1 x2 x3 x4 i = Cert.EdgeScore.score x0 x1 x2 x3 x4 ⟨(i 0).val, idx2_lt0 i⟩ := by
  rw [col_idx i, v23_score]

/-! ## The least and the greatest score

Both reductions run over both axes of the score column into a rank-0 result, so every index of the column drops to the
one result index and each reduction is the fold of `min` (`max`) from `⊤` (`⊥`) over all the column's elements; such a
fold has the universal property of the infimum (supremum) of the scores, the column's indices being the edges. -/

/-- A statement about all elements of a column whose element `(e, 0)` is `f e` is the statement about all `f e`. -/
theorem forall_col {y : S800000x1.Idx → EReal} {f : Fin 800000 → EReal} (hy : ∀ e : Fin 800000, y (ix2 e (0 : Fin 1)) = f e)
    (P : EReal → Prop) : (∀ i ∈ (Finset.univ : Finset S800000x1.Idx), P (y i)) ↔ ∀ e, P (f e) := by
  constructor
  · intro h e; rw [← hy e]; exact h _ (Finset.mem_univ _)
  · intro h i _; rw [col_idx i, hy]; exact h _

/-- The `min` reduction of a column from `+∞` is the infimum of the column's elements over the edges. -/
theorem reduce_min_col (y : S800000x1.Idx → EReal) (f : Fin 800000 → EReal) (hy : ∀ e : Fin 800000, y (ix2 e (0 : Fin 1)) = f e)
    (j : S_.Idx) :
    Host.reduce (FloatOps.minimumf (F := Ideal) (φ := .f32)) y (val_main_cst (F := Ideal)) reducesTo_S800000x1_S_d0_1 h_S_ j
      = ⨅ e, f e := by
  rw [Host.reduce_eq_fold]
  have hs : (Finset.univ.filter fun i : S800000x1.Idx => reducesTo_S800000x1_S_d0_1.drop i = j) = Finset.univ :=
    Finset.filter_true_of_mem fun i _ => funext fun a => a.elim0
  rw [hs, val_main_cst_apply]
  refine Cert.EdgeScore.eq_iInf_of_le_iff f _ fun c => ?_
  have h0 : FloatOps.ofBits (F := Ideal) .f32 0x7F800000#32 = (⊤ : EReal) := Cert.EdgeScore.ofBits_pinf
  rw [h0]
  exact (Cert.EdgeScore.le_fold_min_top Finset.univ y c).trans (forall_col hy (fun v => c ≤ v))

/-- The `max` reduction of a column from `−∞` is the supremum of the column's elements over the edges. -/
theorem reduce_max_col (y : S800000x1.Idx → EReal) (f : Fin 800000 → EReal) (hy : ∀ e : Fin 800000, y (ix2 e (0 : Fin 1)) = f e)
    (j : S_.Idx) :
    Host.reduce (FloatOps.maximumf (F := Ideal) (φ := .f32)) y (val_main_cst_3 (F := Ideal)) reducesTo_S800000x1_S_d0_1 h_S_ j
      = ⨆ e, f e := by
  rw [Host.reduce_eq_fold]
  have hs : (Finset.univ.filter fun i : S800000x1.Idx => reducesTo_S800000x1_S_d0_1.drop i = j) = Finset.univ :=
    Finset.filter_true_of_mem fun i _ => funext fun a => a.elim0
  rw [hs, val_main_cst_3_apply]
  refine Cert.EdgeScore.eq_iSup_of_le_iff f _ fun c => ?_
  have h0 : FloatOps.ofBits (F := Ideal) .f32 0xFF800000#32 = (⊥ : EReal) := Cert.EdgeScore.ofBits_ninf
  rw [h0]
  exact (Cert.EdgeScore.fold_max_bot_le Finset.univ y c).trans (forall_col hy (fun v => v ≤ c))

/-- The reference's least value is the specification's `lo`. -/
theorem v24_lo (x0 : (⟨S100000x128, .f32⟩ : BufTy).Contents (Elt Ideal)) (x1 x2 : (⟨S800000, .i32⟩ : BufTy).Contents (Elt Ideal))
    (x3 : (⟨S1x256, .f32⟩ : BufTy).Contents (Elt Ideal)) (x4 : (⟨S1, .f32⟩ : BufTy).Contents (Elt Ideal)) (j : S_.Idx) :
    val_main_v24 (F := Ideal) x0 x1 x2 x3 x4 j = Cert.EdgeScore.lo x0 x1 x2 x3 x4 := by
  unfold val_main_v24 Cert.EdgeScore.lo
  have hy := v23_score x0 x1 x2 x3 x4
  generalize val_main_v23 (F := Ideal) x0 x1 x2 x3 x4 = y at hy ⊢
  exact reduce_min_col y _ hy j

/-- The reference's greatest value is the specification's `hi`. -/
theorem v25_hi (x0 : (⟨S100000x128, .f32⟩ : BufTy).Contents (Elt Ideal)) (x1 x2 : (⟨S800000, .i32⟩ : BufTy).Contents (Elt Ideal))
    (x3 : (⟨S1x256, .f32⟩ : BufTy).Contents (Elt Ideal)) (x4 : (⟨S1, .f32⟩ : BufTy).Contents (Elt Ideal)) (j : S_.Idx) :
    val_main_v25 (F := Ideal) x0 x1 x2 x3 x4 j = Cert.EdgeScore.hi x0 x1 x2 x3 x4 := by
  unfold val_main_v25 Cert.EdgeScore.hi
  have hy := v23_score x0 x1 x2 x3 x4
  generalize val_main_v23 (F := Ideal) x0 x1 x2 x3 x4 = y at hy ⊢
  exact reduce_max_col y _ hy j

/-! ## The reference is `G` -/

/-- THE REFERENCE COMPUTES `G`: each score less the least one, divided by the greatest less the least. -/
theorem ref_is_G (x0 : (⟨S100000x128, .f32⟩ : BufTy).Contents (Elt Ideal)) (x1 x2 : (⟨S800000, .i32⟩ : BufTy).Contents (Elt Ideal))
    (x3 : (⟨S1x256, .f32⟩ : BufTy).Contents (Elt Ideal)) (x4 : (⟨S1, .f32⟩ : BufTy).Contents (Elt Ideal)) :
    Cert.ReferenceIdeal.Read.val_main_v30 (F := Ideal) x0 x1 x2 x3 x4 = Cert.EdgeScore.G x0 x1 x2 x3 x4 := by
  funext i
  rw [val_main_v30_apply, val_main_v27_apply, val_main_v29_apply, val_main_v28_apply, val_main_v26_apply,
    v24_lo, v25_hi, v23_score_idx]
  rfl

end Cert.ReferenceIdeal.RefSide

end
-- ==== Proof.KRun.lean ====
/-
  The idealized kernel program's run, with its result named.

  The program is five stretches: host operations (the two halves of the weight row), the node-score region, host
  operations (columns of the node table, the two scalar gathers, the bias, the reshape to rows of 128), the
  normalising region, and the final reshape.  The buffer contents at each boundary are a fold from the launch memory;
  the last boundary's contents are named `Gen.W5`.  Every weakly fair execution terminates, faultless, with every
  unscoped buffer at those contents: in particular the result buffer, which this module states beside the unchanged
  arguments.  The segments, their thread states and the proof data are those of the imported generated frame module;
  the last thread state is read at the result buffer as well as at the arguments.
-/
import proofs.«143666_j62491774157283_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v27 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.KRun

end
-- ==== Proof.KHost.lean ====
/-
  The host operations between and after the two regions, each stretch as one function.

  Between the regions: the node table's two columns are taken out as vectors; each edge list is wrapped (a negative
  index counts from the end), broadcast to a column of start indices, and used to gather one scalar per edge from
  the matching column; the two gathered vectors and the bias are added; the 800000 scores are laid out as 6250 rows
  of 128.  After the second region: the 6250 rows of 128 are laid out as one column of 800000.
-/
import proofs.«143666_j62491774157283_2_alg».proof.Proof.Gen.KernelIdeal.Frame
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- An edge list as the column of start indices a gather reads: wrapped, then broadcast to [800000,1]. -/
def startIdx (a : (⟨S800000, .i32⟩ : BufTy).Contents (Elt F)) : (⟨S800000x1, .i32⟩ : BufTy).Contents (Elt F) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 100000#32))) a)

/-- The host operations between the regions, as one function of the node table and the arguments. -/
def scoreRows (T : (⟨S100000x2, .f32⟩ : BufTy).Contents (Elt F)) (a1 a2 : (⟨S800000, .i32⟩ : BufTy).Contents (Elt F))
    (b : (⟨S1, .f32⟩ : BufTy).Contents (Elt F)) : (⟨S6250x128, .f32⟩ : BufTy).Contents (Elt F) :=
  shapeCast S6250x128
    (addf
      (addf
        (Host.gather gather_S100000_S800000x1_S800000_n_0_n_n_0_1_1
          (shapeCast S100000 (extractStridedSlice S100000x1 ![0, 0] T slices_S100000x2_S100000x1_0_0) shapeCasts_S100000x1_S100000)
          (startIdx (F := F) a1))
        (Host.gather gather_S100000_S800000x1_S800000_n_0_n_n_0_1_1
          (shapeCast S100000 (extractStridedSlice S100000x1 ![0, 1] T slices_S100000x2_S100000x1_0_1) shapeCasts_S100000x1_S100000)
          (startIdx (F := F) a2)))
      (broadcastInDim S800000 ![] bcast_S_S800000 (shapeCast S_ b shapeCasts_S1_S_)))
    shapeCasts_S800000_S6250x128

/-- An argument array is still at its launch contents when the second stretch of host operations reads it: the first
    stretch writes only the two halves of the weight row, and the first region's arrays are other buffers. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by after_results
    _ = m ((c : Thread nD τ).loc main_arg1) := rfl
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by after_results
    _ = m ((c : Thread nD τ).loc main_arg2) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by after_results
    _ = m ((c : Thread nD τ).loc main_arg4) := rfl

set_option maxHeartbeats 400000 in
/-- What the second region finds in its input array: the scores, from the node table the first region left. -/
theorem entry_scores (c : Dev nD) :
    (V3 m ρ c main_v25 : S6250x128.Idx → Elt F .f32)
      = scoreRows (F := F) (W2 m ρ c (Proc.devRef .tc main_v2)) (m ((c : Thread nD τ).loc main_arg1))
          (m ((c : Thread nD τ).loc main_arg2)) (m ((c : Thread nD τ).loc main_arg4)) := by
  rw [← W2_arg1 m ρ c, ← W2_arg2 m ρ c, ← W2_arg4 m ρ c]
  show StableHlo.after hostOps1 (W2 m ρ c) (Proc.devRef .tc main_v25) = _
  generalize W2 m ρ c = X
  after_results_simp
  rfl

/-- The program's result: the second region's output array laid out as one column. -/
theorem result_eq (c : Dev nD) :
    (W5 m ρ c (Proc.devRef .tc main_v27) : S800000x1.Idx → Elt F .f32)
      = shapeCast S800000x1 (W4 m ρ c (Proc.devRef .tc main_v26) : S6250x128.Idx → Elt F .f32) shapeCasts_S6250x128_S800000x1 := by
  show StableHlo.after hostOps2 (W4 m ρ c) (Proc.devRef .tc main_v27) = _
  generalize W4 m ρ c = X
  after_results
  rfl

end Cert.KernelIdeal.KHost

end
-- ==== Proof.LibLaneSum.lean ====
/-
  A lane sum read at an index built from coordinates: the sum along the second axis of a two-axis block, started
  from the float zero, is at row `p` the sum over the lane coordinate of the block's entries in that row.
-/
import Idealize.ShloMosaic.Lib.ValueIdx
import Idealize.ShloMosaic.PureOps.Ideal.Laws

namespace Cert.LaneSum

open Idealize.ShloMosaic Idealize.ShloMosaic.ValueIdx

/-- The sum along the second axis of an `[a, k]` block of exact values, at row `p`: `∑ d, src (p, d)`.  The zero
    accumulator's proof is typed as a printed program carries it (`0 = 0` on the words). -/
theorem laneSum_apply {a k : ℕ} (src : FVec Ideal ⟨2, ![a, k]⟩ .f32)
    (h : (⟨2, ![a, k]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => by
    match ax with
    | ⟨0, _⟩ => rfl
    | ⟨1, _⟩ => rfl)

end Cert.LaneSum
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.KPay0.lean ====
/-
  The node-score body's arithmetic at a row: a [5000,128] block of node features times a weight row broadcast down
  the rows, summed along the lanes from zero, is at row `p` the sum over the lane `k` of the block's entry (p, k)
  times the weight row's entry k.
-/
import proofs.«143666_j62491774157283_2_alg».proof.Proof.Gen.KernelIdeal.Skeleton
import proofs.«143666_j62491774157283_2_alg».proof.Proof.LibLaneSum
import proofs.«143666_j62491774157283_2_alg».proof.Proof.LibLayout
import Idealize.ShloMosaic.Lib.ValueIdx
import Idealize.ShloMosaic.Lib.Pipeline.Value
import Idealize.ShloMosaic.PureOps.Ideal.Laws

noncomputable section

namespace Cert.KernelIdeal.KPay0

open Cert.KernelIdeal Cert.KernelIdeal.Gen Idealize.ShloMosaic Idealize.ShloMosaic.ValueIdx

/-- A [1,128] row broadcast down 5000 rows reads, at (p, k), the row's entry k. -/
theorem bcast_row (v : (⟨2, ![1, 128]⟩ : Shape).Idx → EReal) (h : (⟨2, ![1, 128]⟩ : Shape).Broadcasts ⟨2, ![5000, 128]⟩)
    (p : Fin 5000) (k : Fin 128) : broadcastTo ⟨2, ![5000, 128]⟩ v h (ix2 p k) = v (ix2 (0 : Fin 1) k) := by
  refine broadcastTo_apply v h (ix2 p k) (ix2 (0 : Fin 1) k) fun ax => ?_
  match ax with
  | ⟨0, _⟩ => rfl
  | ⟨1, _⟩ => rfl

/-- The source half: row `p` of the block against the weight row. -/
theorem pay_su (x0 : Vec Ideal S5000x128 .f32) (x1 : Vec Ideal S1x128 .f32) (p : Fin 5000) :
    k0_pay1 (F := Ideal) x0 x1 (ix2 p (0 : Fin 1)) = ∑ k : Fin 128, x0 (ix2 p k) * x1 (ix2 (0 : Fin 1) k) := by
  unfold k0_pay1
  refine (Cert.Layout.shapeCast_a_a1_apply _ _ p 0).trans ?_
  refine (Cert.LaneSum.laneSum_apply _ _ _ _ p).trans ?_
  refine Finset.sum_congr rfl fun k _ => ?_
  show x0 (ix2 p k) * broadcastTo S5000x128 (shapeCast S1x128 x1 _) _ (ix2 p k) = _
  rw [shapeCast_self, bcast_row]

/-- The destination half: the same against the other weight row. -/
theorem pay_sv (x0 : Vec Ideal S5000x128 .f32) (x3 : Vec Ideal S1x128 .f32) (p : Fin 5000) :
    k0_pay2 (F := Ideal) x0 x3 (ix2 p (0 : Fin 1)) = ∑ k : Fin 128, x0 (ix2 p k) * x3 (ix2 (0 : Fin 1) k) := by
  unfold k0_pay2
  refine (Cert.Layout.shapeCast_a_a1_apply _ _ p 0).trans ?_
  refine (Cert.LaneSum.laneSum_apply _ _ _ _ p).trans ?_
  refine Finset.sum_congr rfl fun k _ => ?_
  show x0 (ix2 p k) * broadcastTo S5000x128 (shapeCast S1x128 x3 _) _ (ix2 p k) = _
  rw [shapeCast_self, bcast_row]

end Cert.KernelIdeal.KPay0

end
-- ==== Proof.KRegion0.lean ====
/-
  The node-score region: 20 grid points, point `t` reading rows 5000t … 5000t+4999 of the node features and both
  weight rows, and writing rows 5000t … 5000t+4999 of the [100000,2] node table: column 0 the row's product with the
  first weight row, column 1 with the second.  The blocks tile the table, so after the region the table is one
  function of the three arrays the region reads.
-/
import proofs.«143666_j62491774157283_2_alg».proof.Proof.Gen.KernelIdeal.Frame
import proofs.«143666_j62491774157283_2_alg».proof.Proof.KPay0
import Idealize.ShloMosaic.Lib.Pipeline.Value
import Idealize.ShloMosaic.Lib.ValueIdx

set_option maxRecDepth 16384

noncomputable section

open scoped BigOperators

namespace Cert.KernelIdeal.KRegion0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A table of two columns from rows of 128 and two weight rows: entry (n, 0) is row n against the first weight
    row, entry (n, 1) against the second. -/
def table {N : Nat} (A0 : (⟨2, ![N, 128]⟩ : Shape).Idx → EReal) (A1 A2 : (⟨2, ![1, 128]⟩ : Shape).Idx → EReal) :
    (⟨2, ![N, 2]⟩ : Shape).Idx → EReal :=
  fun i => if (i 1).val = 0 then ∑ k : Fin 128, A0 (ix2 ⟨(i 0).val, idx2_lt0 i⟩ k) * A1 (ix2 (0 : Fin 1) k)
    else ∑ k : Fin 128, A0 (ix2 ⟨(i 0).val, idx2_lt0 i⟩ k) * A2 (ix2 (0 : Fin 1) k)

/-- The body's two column stores leave the block's table in the output's staging buffer. -/
theorem out_eq (x0 : Vec Ideal S5000x128 .f32) (x1 x2 : Vec Ideal S1x128 .f32) :
    out0_3 (F := Ideal) x0 x1 x2 = table (N := 5000) x0 x1 x2 := by
  funext y
  unfold out0_3
  refine View.canon_apply_of_pieces (Val := Elt Ideal) (table (N := 5000) x0 x1 x2 : S5000x2.Idx → Elt Ideal .f32) _ ?_ y (cover0_3 _ _ y)
  intro p hp x
  simp only [List.mem_cons, List.not_mem_nil, or_false] at hp
  rcases hp with rfl | rfl
  · obtain ⟨p', q, rfl⟩ : ∃ (p' : Fin 5000) (q : Fin 1), x = ix2 p' q := ⟨x 0, x 1, eq_ix2 x⟩
    obtain rfl : q = 0 := Subsingleton.elim _ _
    show k0_pay2 (View.ld x0 r0_0) (View.ld x2 r0_1) (ix2 p' 0) = table (N := 5000) x0 x1 x2 (r0_3.emb (ix2 p' 0))
    rw [KPay0.pay_sv, View.ld_unit_zero hz, View.ld_unit_zero hz]
    unfold table
    rw [if_neg (by rw [Rect.emb_apply]; show ¬ ((1 : Nat) + 1 * 0 = 0); decide)]
    refine Finset.sum_congr rfl fun k _ => ?_
    refine congrArg (fun i => x0 i * x2 (ix2 (0 : Fin 1) k)) (funext fun a => Fin.ext ?_)
    match a with
    | ⟨0, _⟩ => show p'.val = (r0_3.emb (ix2 p' (0 : Fin 1)) 0).val; rw [Rect.emb_apply]; show p'.val = 0 + 1 * p'.val; omega
    | ⟨1, _⟩ => rfl
  · obtain ⟨p', q, rfl⟩ : ∃ (p' : Fin 5000) (q : Fin 1), x = ix2 p' q := ⟨x 0, x 1, eq_ix2 x⟩
    obtain rfl : q = 0 := Subsingleton.elim _ _
    show k0_pay1 (View.ld x0 r0_0) (View.ld x1 r0_1) (ix2 p' 0) = table (N := 5000) x0 x1 x2 (r0_2.emb (ix2 p' 0))
    rw [KPay0.pay_su, View.ld_unit_zero hz, View.ld_unit_zero hz]
    unfold table
    rw [if_pos (by rw [Rect.emb_apply]; show (0 : Nat) + 1 * 0 = 0; rfl)]
    refine Finset.sum_congr rfl fun k _ => ?_
    refine congrArg (fun i => x0 i * x1 (ix2 (0 : Fin 1) k)) (funext fun a => Fin.ext ?_)
    match a with
    | ⟨0, _⟩ => show p'.val = (r0_2.emb (ix2 p' (0 : Fin 1)) 0).val; rw [Rect.emb_apply]; show p'.val = 0 + 1 * p'.val; omega
    | ⟨1, _⟩ => rfl

/-- The printed index maps over the grid: the feature window and the table window move down with the point, the
    weight rows' windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t`, entry (p, k), is the array's entry (5000 t + p, k). -/
theorem iblk_feat (c : Dev nD) (t : Fin cfg0.N) (p : Fin 5000) (k : Fin 128) (n : Fin 100000) (hn : n.val = 5000 * t.val + p.val) :
    (iblk0 V c 0 t : Vec Ideal S5000x128 .f32) (ix2 p k) = (V c main_arg0 : S100000x128.Idx → EReal) (ix2 n k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = n.val; rw [e0, hn]; omega
  | ⟨1, _⟩ => show win0_0.index t 1 * 128 + 1 * k.val = k.val; rw [e1]; omega

/-- Each weight row's block at any point is the row. -/
theorem iblk_w1 (c : Dev nD) (t : Fin cfg0.N) (k : Fin 128) :
    (iblk0 V c 1 t : Vec Ideal S1x128 .f32) (ix2 (0 : Fin 1) k) = (V c main_v0 : S1x128.Idx → EReal) (ix2 (0 : Fin 1) k) := by
  obtain ⟨-, -, e0, e1, -⟩ := idx_facts t
  unfold iblk0
  rw [View.read_apply]
  show V c main_v0 _ = V c main_v0 _
  congr 1
  funext a
  apply Fin.ext
  match a with
  | ⟨0, _⟩ => show win0_1.index t 0 * 1 + 1 * 0 = 0; rw [e0]
  | ⟨1, _⟩ => show win0_1.index t 1 * 128 + 1 * k.val = k.val; rw [e1]; omega
theorem iblk_w2 (c : Dev nD) (t : Fin cfg0.N) (k : Fin 128) :
    (iblk0 V c 2 t : Vec Ideal S1x128 .f32) (ix2 (0 : Fin 1) k) = (V c main_v1 : S1x128.Idx → EReal) (ix2 (0 : Fin 1) k) := by
  obtain ⟨-, -, -, -, e0, e1, -⟩ := idx_facts t
  unfold iblk0
  rw [View.read_apply]
  show V c main_v1 _ = V c main_v1 _
  congr 1
  funext a
  apply Fin.ext
  match a with
  | ⟨0, _⟩ => show win0_2.index t 0 * 1 + 1 * 0 = 0; rw [e0]
  | ⟨1, _⟩ => show win0_2.index t 1 * 128 + 1 * k.val = k.val; rw [e1]; omega

/-- What point `t` writes back is block `t` of the whole table. -/
theorem flushed_eq (c : Dev nD) (t : Fin cfg0.N) (hf : (cfg0.win 3).flush t = true) :
    (dat0 V c).flushed 3 t = ((cfg0.win 3).blk t).view.read (Elt Ideal)
      (table (N := 100000) (V c main_arg0 : S100000x128.Idx → EReal) (V c main_v0 : S1x128.Idx → EReal) (V c main_v1 : S1x128.Idx → EReal)) := by
  obtain ⟨-, -, -, -, -, -, e0, e1⟩ := idx_facts t
  show (cfg0.win 3).cut (grid0.coords t) ((dat0 V c).after 3 t) = _
  rw [after0_3, out_eq]
  funext j
  rw [View.read_apply]
  obtain ⟨p, q, rfl⟩ : ∃ (p : Fin 5000) (q : Fin 2), j = ix2 p q := ⟨j 0, j 1, eq_ix2 j⟩
  have hp : p.val < 5000 := p.isLt
  have hN : t.val < 20 := by have h20 : cfg0.N = 20 := N_0; have := t.isLt; omega
  have h0 : ((((cfg0.win 3).blk t).view.emb (ix2 p q)) 0).val = 5000 * t.val + p.val := by
    show win0_3.index t 0 * 5000 + 1 * p.val = _; rw [e0]; omega
  have h1 : ((((cfg0.win 3).blk t).view.emb (ix2 p q)) 1).val = q.val := by
    show win0_3.index t 1 * 2 + 1 * q.val = _; rw [e1]; omega
  show table (N := 5000) (iblk0 V c 0 t) (iblk0 V c 1 t) (iblk0 V c 2 t) (ix2 p q) = table (N := 100000) _ _ _ (((cfg0.win 3).blk t).view.emb (ix2 p q))
  unfold table
  rw [h1]
  show (if q.val = 0 then _ else _) = _
  by_cases hq : q.val = 0
  · rw [if_pos hq, if_pos hq]
    exact Finset.sum_congr rfl fun k _ => by rw [iblk_feat V c t p k ⟨_, _⟩ h0, iblk_w1]; rfl
  · rw [if_neg hq, if_neg hq]
    exact Finset.sum_congr rfl fun k _ => by rw [iblk_feat V c t p k ⟨_, _⟩ h0, iblk_w2]; rfl

/-- An index of the table is in point `t`'s block iff its row is among the block's 5000. -/
theorem mem_blk (t : Fin cfg0.N) (i : S100000x2.Idx) :
    i ∈ ((cfg0.win 3).blk t).view.set ↔ ∀ a : Fin 2, win0_3.index t a * S5000x2.size a ≤ (i a).val ∧ (i a).val < win0_3.index t a * S5000x2.size a + S5000x2.size a := by
  show i ∈ ((View.whole main_v2).slice (win0_3.rect t)).set ↔ _
  rw [View.set_slice_whole, Rect.mem_set_unit]
  exact Iff.rfl

/-- THE NODE TABLE after the region. -/
theorem final (c : Dev nD) : (dat0 V c).arrAt 3 cfg0.N
    = table (N := 100000) (V c main_arg0 : S100000x128.Idx → EReal) (V c main_v0 : S1x128.Idx → EReal) (V c main_v1 : S1x128.Idx → EReal) :=
  (dat0 V c).arrAt_eq_of_cover 3 _ (flushed_eq V c) fun i => by
    have hi0 : (i 0).val < 100000 := (i 0).isLt
    have hi1 : (i 1).val < 2 := (i 1).isLt
    have hN : cfg0.N = 20 := N_0
    refine ⟨⟨(i 0).val / 5000, by rw [hN]; omega⟩, flush0_3 _, ?_⟩
    rw [mem_blk]
    obtain ⟨-, -, -, -, -, -, e0, e1⟩ := idx_facts ⟨(i 0).val / 5000, by rw [hN]; omega⟩
    intro a
    match a with
    | ⟨0, _⟩ => show win0_3.index _ 0 * 5000 ≤ (i 0).val ∧ (i 0).val < win0_3.index _ 0 * 5000 + 5000; rw [e0]; show (i 0).val / 5000 * 5000 ≤ _ ∧ _ < (i 0).val / 5000 * 5000 + 5000; omega
    | ⟨1, _⟩ => show win0_3.index _ 1 * 2 ≤ (i 1).val ∧ (i 1).val < win0_3.index _ 1 * 2 + 2; rw [e1]; omega

end Cert.KernelIdeal.KRegion0

end
-- ==== Proof.KRegion1.lean ====
/-
  The normalising region: its one grid point takes the whole [6250,128] score array as its block and writes the whole
  result array back, so the result array after the region is the body's arithmetic applied to the score array as the
  region finds it.
-/
import proofs.«143666_j62491774157283_2_alg».proof.Proof.Gen.KernelIdeal.Frame
import Idealize.ShloMosaic.Lib.Pipeline.Value

set_option maxRecDepth 16384

noncomputable section

namespace Cert.KernelIdeal.KRegion1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the one grid point both windows' blocks start at the array's origin. -/
theorem off_in : (fun a => win1_0.index t1_0 a * main_v25.ty.shape.size a) = fun _ => 0 :=
  funext fun a => by fin_cases a <;> decide
theorem off_out : (fun a => win1_1.index t1_0 a * main_v26.ty.shape.size a) = fun _ => 0 :=
  funext fun a => by fin_cases a <;> decide

/-- The input window's block at the one point is the score array itself. -/
theorem iblk_whole (c : Dev nD) : iblk1 V c 0 t1_0 = (V c main_v25 : S6250x128.Idx → Elt F .f32) := by
  unfold iblk1
  exact Memref.read_access_unit_zero (Elt F) main_v25 off_in (fun a => by rw [congrFun off_in a]; simp) (V c main_v25)

/-- What the one point writes back is the whole of the body's result on the score array. -/
theorem flushed_eq (c : Dev nD) (t : Fin cfg1.N) (hf : (cfg1.win 1).flush t = true) :
    (dat1 V c).flushed 1 t = ((cfg1.win 1).blk t).view.read (Elt F) (k1_pay1 (V c main_v25 : S6250x128.Idx → Elt F .f32)) := by
  obtain rfl : t = t1_0 := fin_N1 t
  show (cfg1.win 1).cut (grid1.coords t1_0) ((dat1 V c).after 1 t1_0) = _
  rw [after1_1]
  unfold out1_1
  rw [View.canon_unit_zero hz]
  simp only [View.ld_unit_zero (S := S6250x128) hz]
  rw [iblk_whole]
  exact (Memref.read_access_unit_zero (Elt F) main_v26 off_out (fun a => by rw [congrFun off_out a]; simp) _).symm

/-- So the result array after the region is the body's arithmetic of the score array at the region's entry. -/
theorem final (c : Dev nD) : (dat1 V c).arrAt 1 cfg1.N = k1_pay1 (V c main_v25 : S6250x128.Idx → Elt F .f32) :=
  (dat1 V c).arrAt_eq_of_cover 1 _ (flushed_eq V c) fun i =>
    ⟨t1_0, flush1_1 t1_0, by
      show i ∈ ((View.whole main_v26).slice (win1_1.rect t1_0)).set
      rw [View.set_slice_whole, Rect.mem_set_unit]
      intro a
      have h0 : (i 0 : Nat) < 6250 := (i 0).isLt
      have h1 : (i 1 : Nat) < 128 := (i 1).isLt
      match a with
      | ⟨0, _⟩ => show win1_1.index t1_0 0 * win1_1.size 0 ≤ (i 0 : Nat) ∧ (i 0 : Nat) < win1_1.index t1_0 0 * win1_1.size 0 + win1_1.xsize (grid1.coords t1_0) 0
                  rw [show win1_1.index t1_0 0 * win1_1.size 0 = 0 from by decide +kernel, show win1_1.xsize (grid1.coords t1_0) 0 = 6250 from by decide +kernel]; omega
      | ⟨1, _⟩ => show win1_1.index t1_0 1 * win1_1.size 1 ≤ (i 1 : Nat) ∧ (i 1 : Nat) < win1_1.index t1_0 1 * win1_1.size 1 + win1_1.xsize (grid1.coords t1_0) 1
                  rw [show win1_1.index t1_0 1 * win1_1.size 1 = 0 from by decide +kernel, show win1_1.xsize (grid1.coords t1_0) 1 = 128 from by decide +kernel]; omega⟩

end Cert.KernelIdeal.KRegion1

end
-- ==== Proof.KScore.lean ====
/-
  THE SCORES BETWEEN THE REGIONS, READ AT AN INDEX.  The host operations between the kernel's two regions take the
  node table `T` (one row per node: the node's feature row against the source half of the weight row in column 0,
  against the destination half in column 1), gather one scalar per edge from each column at the edge's wrapped and
  clamped index word, add the two gathered vectors and the bias, and lay the 800000 sums out as 6250 rows of 128.
  Element `(r, c)` of the rows is therefore the sum for edge `e = 128 r + c`:
  `T[node (a1 e), 0] + T[node (a2 e), 1] + b`.
-/
import proofs.«143666_j62491774157283_2_alg».proof.Proof.KHost
import proofs.«143666_j62491774157283_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KScore

open Cert.KernelIdeal Cert.KernelIdeal.Gen Cert.KernelIdeal.KHost Idealize.ShloMosaic Idealize.ShloMosaic.ValueIdx

/-! ## The scalar gather read at an index

The gather takes one scalar per edge out of a vector of 100000: result element `e` is the vector's element `n`, where
`n` is the `e`-th start index read signed and clamped into `[0, 99999]` (the slice has size one, so the clamp's upper
end is `100000 - 1`). -/

theorem gather_scalar {α : Type} {w : Nat} (x : S100000.Idx → α) (idx : IVec S800000x1 w) (e : Fin 800000) :
    Host.gather gather_S100000_S800000x1_S800000_n_0_n_n_0_1_1 x idx (ix1 e)
      = x (ix1 (⟨min (idx (ix2 e (0 : Fin 1))).toInt.toNat 99999, by omega⟩ : Fin 100000)) := by
  unfold Host.gather
  congr 1
  funext a
  refine Fin.ext ?_
  match a with
  | ⟨0, _⟩ =>
    show gather_S100000_S800000x1_S800000_n_0_n_n_0_1_1.start (ix1 e) idx 0
        + gather_S100000_S800000x1_S800000_n_0_n_n_0_1_1.batchCoord (ix1 e) 0
        + gather_S100000_S800000x1_S800000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S100000_S800000x1_S800000_n_0_n_n_0_1_1.startIndexMap from List.mem_singleton.mpr rfl)]
    have hsi : gather_S100000_S800000x1_S800000_n_0_n_n_0_1_1.siIdx (ix1 e)
        ⟨List.idxOf (0 : Fin 1) gather_S100000_S800000x1_S800000_n_0_n_n_0_1_1.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The start indices, the columns of the table, the bias -/

/-- A splat integer constant broadcast to the edges reads the constant everywhere. -/
theorem splat_apply (v : BitVec 32) (i : S800000.Idx) :
    broadcastInDim S800000 ![] bcast_S_S800000 (constantI S_ 32 v) i = v :=
  broadcastInDim_apply _ bcast_S_S800000 (constantI S_ 32 v) i ix0 (fun a => a.elim0)

/-- The column of start indices at `(e, 0)` is the specification's `wrap` of the `e`-th index word. -/
theorem startIdx_apply (a : (⟨S800000, .i32⟩ : BufTy).Contents (Elt Ideal)) (e : Fin 800000) :
    startIdx (F := Ideal) a (ix2 e (0 : Fin 1)) = Cert.EdgeScore.wrap (a (ix1 e)) := by
  unfold startIdx
  refine (broadcastInDim_apply _ bcast_S800000_S800000x1_0 _ (ix2 e (0 : Fin 1)) (ix1 e) (fun d => match d with
    | ⟨0, _⟩ => by show e.val = if (800000 : Nat) = 1 then 0 else e.val; rw [if_neg (by decide)])).trans ?_
  show Scalar.select (IntOp.cmpi .slt (a (ix1 e)) (broadcastInDim S800000 ![] bcast_S_S800000 (constantI S_ 32 0#32) (ix1 e)))
      (IntOp.addi (a (ix1 e)) (broadcastInDim S800000 ![] bcast_S_S800000 (constantI S_ 32 100000#32) (ix1 e))) (a (ix1 e)) = _
  rw [splat_apply, splat_apply]
  rfl

/-- Column 0 of the node table as a vector: element `n` is `T[n, 0]`. -/
theorem col0_apply (T : (⟨S100000x2, .f32⟩ : BufTy).Contents (Elt Ideal)) (n : Fin 100000) :
    shapeCast S100000 (extractStridedSlice S100000x1 ![0, 0] T slices_S100000x2_S100000x1_0_0) shapeCasts_S100000x1_S100000 (ix1 n)
      = T (ix2 n (0 : Fin 2)) := by
  refine (shapeCast_apply _ shapeCasts_S100000x1_S100000 (ix1 n) (ix2 n (0 : Fin 1)) ?_).trans ?_
  · rw [Shape.rowMajor_val_two, Shape.rowMajor_val_one]
    show n.val * 1 + 0 = n.val
    omega
  · exact extractStridedSlice_apply ![0, 0] T slices_S100000x2_S100000x1_0_0 (ix2 n (0 : Fin 1)) (ix2 n (0 : Fin 2)) (fun d => match d with
      | ⟨0, _⟩ => by show n.val = 0 + n.val; omega
      | ⟨1, _⟩ => by show 0 = 0 + 0; rfl)

/-- Column 1 of the node table as a vector: element `n` is `T[n, 1]`. -/
theorem col1_apply (T : (⟨S100000x2, .f32⟩ : BufTy).Contents (Elt Ideal)) (n : Fin 100000) :
    shapeCast S100000 (extractStridedSlice S100000x1 ![0, 1] T slices_S100000x2_S100000x1_0_1) shapeCasts_S100000x1_S100000 (ix1 n)
      = T (ix2 n (1 : Fin 2)) := by
  refine (shapeCast_apply _ shapeCasts_S100000x1_S100000 (ix1 n) (ix2 n (0 : Fin 1)) ?_).trans ?_
  · rw [Shape.rowMajor_val_two, Shape.rowMajor_val_one]
    show n.val * 1 + 0 = n.val
    omega
  · exact extractStridedSlice_apply ![0, 1] T slices_S100000x2_S100000x1_0_1 (ix2 n (0 : Fin 1)) (ix2 n (1 : Fin 2)) (fun d => match d with
      | ⟨0, _⟩ => by show n.val = 0 + n.val; omega
      | ⟨1, _⟩ => by show 1 = 1 + 0; rfl)

/-- The bias broadcast to the edges reads the one bias everywhere. -/
theorem bias_apply (b : (⟨S1, .f32⟩ : BufTy).Contents (Elt Ideal)) (i : S800000.Idx) :
    broadcastInDim S800000 ![] bcast_S_S800000 (shapeCast S_ b shapeCasts_S1_S_) i = b (ix1 (0 : Fin 1)) := by
  refine (broadcastInDim_apply _ bcast_S_S800000 _ i ix0 (fun a => a.elim0)).trans ?_
  refine shapeCast_apply b shapeCasts_S1_S_ ix0 (ix1 (0 : Fin 1)) ?_
  rw [Shape.rowMajor_val_one]
  have h := (S_.rowMajor ix0).isLt
  have h1 : S_.numel = 1 := rfl
  show 0 = (S_.rowMajor ix0).val
  omega

/-- A gathered column at edge `e`: the table's element at the node the `e`-th index word names. -/
theorem gather_col0 (T : (⟨S100000x2, .f32⟩ : BufTy).Contents (Elt Ideal)) (a : (⟨S800000, .i32⟩ : BufTy).Contents (Elt Ideal))
    (e : Fin 800000) :
    Host.gather gather_S100000_S800000x1_S800000_n_0_n_n_0_1_1
        (shapeCast S100000 (extractStridedSlice S100000x1 ![0, 0] T slices_S100000x2_S100000x1_0_0) shapeCasts_S100000x1_S100000)
        (startIdx (F := Ideal) a) (ix1 e)
      = T (ix2 (Cert.EdgeScore.node (a (ix1 e))) (0 : Fin 2)) := by
  rw [gather_scalar, col0_apply]
  refine congrArg T (congrArg (fun n : Fin 100000 => ix2 n (0 : Fin 2)) (Fin.ext ?_))
  show min (startIdx (F := Ideal) a (ix2 e (0 : Fin 1))).toInt.toNat 99999 = min (Cert.EdgeScore.wrap (a (ix1 e))).toInt.toNat 99999
  rw [startIdx_apply]

theorem gather_col1 (T : (⟨S100000x2, .f32⟩ : BufTy).Contents (Elt Ideal)) (a : (⟨S800000, .i32⟩ : BufTy).Contents (Elt Ideal))
    (e : Fin 800000) :
    Host.gather gather_S100000_S800000x1_S800000_n_0_n_n_0_1_1
        (shapeCast S100000 (extractStridedSlice S100000x1 ![0, 1] T slices_S100000x2_S100000x1_0_1) shapeCasts_S100000x1_S100000)
        (startIdx (F := Ideal) a) (ix1 e)
      = T (ix2 (Cert.EdgeScore.node (a (ix1 e))) (1 : Fin 2)) := by
  rw [gather_scalar, col1_apply]
  refine congrArg T (congrArg (fun n : Fin 100000 => ix2 n (1 : Fin 2)) (Fin.ext ?_))
  show min (startIdx (F := Ideal) a (ix2 e (0 : Fin 1))).toInt.toNat 99999 = min (Cert.EdgeScore.wrap (a (ix1 e))).toInt.toNat 99999
  rw [startIdx_apply]

/-! ## The rows of scores -/

/-- THE SCORES AT `(r, c)`: the sum for edge `e = 128 r + c`. -/
theorem scoreRows_apply (T : (⟨S100000x2, .f32⟩ : BufTy).Contents (Elt Ideal)) (a1 a2 : (⟨S800000, .i32⟩ : BufTy).Contents (Elt Ideal))
    (b : (⟨S1, .f32⟩ : BufTy).Contents (Elt Ideal)) (r : Fin 6250) (c : Fin 128) (e : Fin 800000) (he : e.val = 128 * r.val + c.val) :
    scoreRows (F := Ideal) T a1 a2 b (ix2 r c)
      = T (ix2 (Cert.EdgeScore.node (a1 (ix1 e))) (0 : Fin 2)) + T (ix2 (Cert.EdgeScore.node (a2 (ix1 e))) (1 : Fin 2)) + b (ix1 (0 : Fin 1)) := by
  unfold scoreRows
  refine (shapeCast_apply _ shapeCasts_S800000_S6250x128 (ix2 r c) (ix1 e) ?_).trans ?_
  · rw [Shape.rowMajor_val_one, Shape.rowMajor_val_two]
    show e.val = r.val * 128 + c.val
    omega
  · rw [addf_apply, addf_apply, gather_col0, gather_col1, bias_apply]

end Cert.KernelIdeal.KScore

end
-- ==== Proof.KPayloads.lean ====
/-
  The normalising kernel body's arithmetic read at one element.

  Over a block `x` of 6250 rows and 128 lanes the body takes each row's least entry (a fold of `min` along the lanes
  from +∞), then the least of those (a fold of `min` down the rows from +∞), which is the least entry of the whole
  block; the same with `max` from −∞ gives the greatest entry; and every entry is normalised as
  `(x − least) / (greatest − least)`.  A fold of `min` from the top element has the universal property of an infimum
  (a value is below the fold exactly when it is below every folded value), two such folds compose, and a value with
  that property IS the infimum; dually for `max` and the supremum.  So at `(r, c)` the body's value is
  `Ideal.div (x (r, c) − ⨅ x) (⨆ x − ⨅ x)`.
-/
import proofs.«143666_j62491774157283_2_alg».proof.Proof.Gen.KernelIdeal.Skeleton
import proofs.«143666_j62491774157283_2_alg».proof.Proof.Spec
import proofs.«143666_j62491774157283_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPayloads

open Cert.KernelIdeal Cert.KernelIdeal.Gen Idealize.ShloMosaic Idealize.ShloMosaic.ValueIdx

/-! ## Two nested folds are the infimum / supremum over the pairs -/

/-- The least of the rows' least entries is the infimum over all (row, lane) pairs. -/
theorem fold_min_fold_min {m n : ℕ} (f : Fin m → Fin n → EReal) :
    ((Finset.univ : Finset (Fin m)).fold min ⊤ fun r => (Finset.univ : Finset (Fin n)).fold min ⊤ fun c => f r c)
      = ⨅ p : Fin m × Fin n, f p.1 p.2 :=
  Cert.EdgeScore.eq_iInf_of_le_iff _ _ fun c => by
    rw [Cert.EdgeScore.le_fold_min_top]
    constructor
    · intro h p
      exact (Cert.EdgeScore.le_fold_min_top _ _ _).mp (h p.1 (Finset.mem_univ _)) p.2 (Finset.mem_univ _)
    · intro h r _
      exact (Cert.EdgeScore.le_fold_min_top _ _ _).mpr fun c' _ => h (r, c')

/-- The greatest of the rows' greatest entries is the supremum over all (row, lane) pairs. -/
theorem fold_max_fold_max {m n : ℕ} (f : Fin m → Fin n → EReal) :
    ((Finset.univ : Finset (Fin m)).fold max ⊥ fun r => (Finset.univ : Finset (Fin n)).fold max ⊥ fun c => f r c)
      = ⨆ p : Fin m × Fin n, f p.1 p.2 :=
  Cert.EdgeScore.eq_iSup_of_le_iff _ _ fun c => by
    rw [Cert.EdgeScore.fold_max_bot_le]
    constructor
    · intro h p
      exact (Cert.EdgeScore.fold_max_bot_le _ _ _).mp (h p.1 (Finset.mem_univ _)) p.2 (Finset.mem_univ _)
    · intro h r _
      exact (Cert.EdgeScore.fold_max_bot_le _ _ _).mpr fun c' _ => h (r, c')

/-! ## A minimum / maximum reduction over one axis, as a fold over that axis's coordinates -/

/-- A `minimumf` reduction over one axis, at the exact values: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The rows' least entries: a `minimumf` reduction along the lanes of an `[a, k]` block from +∞, at row `p`. -/
theorem rowMin_apply {a k : ℕ} (src : FVec Ideal ⟨2, ![a, k]⟩ .f32)
    (h : (⟨2, ![a, k]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin k)).fold min ⊤ fun d => src (ix2 p d) := by
  refine (multiReduction_minimumf_single src 0x7F800000#32 h hφ hacc (ix1 p)).trans ?_
  show (Finset.univ : Finset (Fin k)).fold min (Ideal.ofBits .f32 0x7F800000#32) (src ∘ h.lift (ix1 p)) = _
  rw [Cert.EdgeScore.ofBits_pinf]
  refine Finset.fold_congr fun d _ => congrArg src (funext fun ax => ?_)
  match ax with
  | ⟨0, _⟩ => rfl
  | ⟨1, _⟩ => rfl

/-- The rows' greatest entries: a `maximumf` reduction along the lanes of an `[a, k]` block from −∞, at row `p`. -/
theorem rowMax_apply {a k : ℕ} (src : FVec Ideal ⟨2, ![a, k]⟩ .f32)
    (h : (⟨2, ![a, k]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin k)).fold max ⊥ fun d => src (ix2 p d) := by
  refine (Ideal.multiReduction_maximumf_single src 0xFF800000#32 h hφ hacc (ix1 p)).trans ?_
  show (Finset.univ : Finset (Fin k)).fold max (Ideal.ofBits .f32 0xFF800000#32) (src ∘ h.lift (ix1 p)) = _
  rw [Cert.EdgeScore.ofBits_ninf]
  refine Finset.fold_congr fun d _ => congrArg src (funext fun ax => ?_)
  match ax with
  | ⟨0, _⟩ => rfl
  | ⟨1, _⟩ => rfl

/-- The least entry of a column: a `minimumf` reduction down the rows of an `[a, 1]` column from +∞. -/
theorem colMin_apply {a : ℕ} (src : FVec Ideal ⟨2, ![a, 1]⟩ .f32)
    (h : (⟨2, ![a, 1]⟩ : Shape).Reduces [0] ⟨1, ![1]⟩) (hφ : FKind.Formats .f32)
    (hacc : (0x7F800000#32 : BitVec 32) = 0x7F800000#32) (u : Fin 1) :
    multiReduction .minimumf [0] ⟨1, ![1]⟩ src 0x7F800000#32 h hφ hacc (ix1 u)
      = (Finset.univ : Finset (Fin a)).fold min ⊤ fun r => src (ix2 r (0 : Fin 1)) := by
  refine (multiReduction_minimumf_single src 0x7F800000#32 h hφ hacc (ix1 u)).trans ?_
  show (Finset.univ : Finset (Fin a)).fold min (Ideal.ofBits .f32 0x7F800000#32) (src ∘ h.lift (ix1 u)) = _
  rw [Cert.EdgeScore.ofBits_pinf]
  refine Finset.fold_congr fun r _ => congrArg src (funext fun ax => ?_)
  match ax with
  | ⟨0, _⟩ => rfl
  | ⟨1, _⟩ => exact (show ∀ x y : Fin 1, x = y from fun x y => Subsingleton.elim x y) _ _

/-- The greatest entry of a column: a `maximumf` reduction down the rows of an `[a, 1]` column from −∞. -/
theorem colMax_apply {a : ℕ} (src : FVec Ideal ⟨2, ![a, 1]⟩ .f32)
    (h : (⟨2, ![a, 1]⟩ : Shape).Reduces [0] ⟨1, ![1]⟩) (hφ : FKind.Formats .f32)
    (hacc : (0xFF800000#32 : BitVec 32) = 0xFF800000#32) (u : Fin 1) :
    multiReduction .maximumf [0] ⟨1, ![1]⟩ src 0xFF800000#32 h hφ hacc (ix1 u)
      = (Finset.univ : Finset (Fin a)).fold max ⊥ fun r => src (ix2 r (0 : Fin 1)) := by
  refine (Ideal.multiReduction_maximumf_single src 0xFF800000#32 h hφ hacc (ix1 u)).trans ?_
  show (Finset.univ : Finset (Fin a)).fold max (Ideal.ofBits .f32 0xFF800000#32) (src ∘ h.lift (ix1 u)) = _
  rw [Cert.EdgeScore.ofBits_ninf]
  refine Finset.fold_congr fun r _ => congrArg src (funext fun ax => ?_)
  match ax with
  | ⟨0, _⟩ => rfl
  | ⟨1, _⟩ => exact (show ∀ x y : Fin 1, x = y from fun x y => Subsingleton.elim x y) _ _

/-! ## A one-entry block broadcast over a whole block -/

/-- A `[1, 1]` block broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The least and the greatest entry as the body computes them -/

/-- The body's `[1, 1]` block of the least entry: rows' minima, cast to a column, its minimum, cast to `[1, 1]`. -/
theorem least_apply (x0 : Vec Ideal S6250x128 .f32) :
    shapeCast S1x1
        (multiReduction (F := Ideal) .minimumf [0] S1
          (shapeCast S6250x1
            (multiReduction (F := Ideal) .minimumf [1] S6250 x0 0x7F800000#32 reduces_S6250x128_S6250 (.inl rfl) rfl)
            shapeCasts_S6250_S6250x1)
          0x7F800000#32 reduces_S6250x1_S1 (.inl rfl) rfl)
        shapeCasts_S1_S1x1 (ix2 (0 : Fin 1) (0 : Fin 1))
      = ⨅ p : Fin 6250 × Fin 128, x0 (ix2 p.1 p.2) := by
  refine (shapeCast_a_1a_apply _ _ (0 : Fin 1) (0 : Fin 1)).trans ?_
  refine (colMin_apply _ _ _ _ (0 : Fin 1)).trans ?_
  refine Eq.trans ?_ (fold_min_fold_min fun r c => x0 (ix2 r c))
  refine Finset.fold_congr fun r _ => ?_
  refine (Cert.Layout.shapeCast_a_a1_apply _ _ r (0 : Fin 1)).trans ?_
  exact rowMin_apply _ _ _ _ r

/-- The body's `[1, 1]` block of the greatest entry. -/
theorem greatest_apply (x0 : Vec Ideal S6250x128 .f32) :
    shapeCast S1x1
        (multiReduction (F := Ideal) .maximumf [0] S1
          (shapeCast S6250x1
            (multiReduction (F := Ideal) .maximumf [1] S6250 x0 0xFF800000#32 reduces_S6250x128_S6250 (.inl rfl) rfl)
            shapeCasts_S6250_S6250x1)
          0xFF800000#32 reduces_S6250x1_S1 (.inl rfl) rfl)
        shapeCasts_S1_S1x1 (ix2 (0 : Fin 1) (0 : Fin 1))
      = ⨆ p : Fin 6250 × Fin 128, x0 (ix2 p.1 p.2) := by
  refine (shapeCast_a_1a_apply _ _ (0 : Fin 1) (0 : Fin 1)).trans ?_
  refine (colMax_apply _ _ _ _ (0 : Fin 1)).trans ?_
  refine Eq.trans ?_ (fold_max_fold_max fun r c => x0 (ix2 r c))
  refine Finset.fold_congr fun r _ => ?_
  refine (Cert.Layout.shapeCast_a_a1_apply _ _ r (0 : Fin 1)).trans ?_
  exact rowMax_apply _ _ _ _ r

/-! ## The body at an element -/

/-- The last step of the body at `(p, c)`: a block less a broadcast one-entry block `lo`, over the broadcast of a
    one-entry block `hi` less `lo`; `L` and `G` name the two blocks' entries. -/
theorem norm_apply {a b : ℕ} (x : FVec Ideal ⟨2, ![a, b]⟩ .f32) (lo hi : FVec Ideal ⟨2, ![1, 1]⟩ .f32)
    (h : (⟨2, ![1, 1]⟩ : Shape).Broadcasts ⟨2, ![a, b]⟩) (p : Fin a) (c : Fin b) (L G : EReal)
    (hL : lo (ix2 (0 : Fin 1) (0 : Fin 1)) = L) (hG : hi (ix2 (0 : Fin 1) (0 : Fin 1)) = G) :
    divf (subf x (broadcastTo ⟨2, ![a, b]⟩ lo h)) (broadcastTo ⟨2, ![a, b]⟩ (subf hi lo) h) (ix2 p c)
      = Ideal.div (x (ix2 p c) - L) (G - L) := by
  rw [divf_apply, subf_apply, broadcastTo_11_ab_apply, broadcastTo_11_ab_apply, subf_apply, hL, hG]

/-- THE NORMALISING BODY AT `(r, c)`: the entry less the block's least entry, over the greatest less the least. -/
theorem pay_norm (x0 : Vec Ideal S6250x128 .f32) (r : Fin 6250) (c : Fin 128) :
    k1_pay1 (F := Ideal) x0 (ix2 r c)
      = Ideal.div (x0 (ix2 r c) - ⨅ p : Fin 6250 × Fin 128, x0 (ix2 p.1 p.2))
          ((⨆ p : Fin 6250 × Fin 128, x0 (ix2 p.1 p.2)) - ⨅ p : Fin 6250 × Fin 128, x0 (ix2 p.1 p.2)) := by
  unfold k1_pay1
  refine (norm_apply _ _ _ _ r c _ _ (least_apply _) (greatest_apply _)).trans ?_
  rw [shapeCast_self]

end Cert.KernelIdeal.KPayloads

end
-- ==== Proof.KValue.lean ====
/-
  The idealized kernel program's result is the normalised edge scores.

  Read back from the last boundary: the result is the second region's output laid out as a column; that output is the
  normalising body's arithmetic of the score rows; the score rows are the host chain's function of the node table; the
  node table is the first region's table of the node features against the two halves of the weight row.  Entry
  (r, c) of the score rows is edge 128 r + c's score, and (r, c) ↦ 128 r + c runs over all 800000 edges, so the least
  and greatest entries of the rows are the least and greatest scores.
-/
import proofs.«143666_j62491774157283_2_alg».proof.Proof.Gen.KernelIdeal.Frame
import proofs.«143666_j62491774157283_2_alg».proof.Proof.Spec
import proofs.«143666_j62491774157283_2_alg».proof.Proof.KHost
import proofs.«143666_j62491774157283_2_alg».proof.Proof.KRegion0
import proofs.«143666_j62491774157283_2_alg».proof.Proof.KRegion1
import proofs.«143666_j62491774157283_2_alg».proof.Proof.KScore
import proofs.«143666_j62491774157283_2_alg».proof.Proof.KPayloads
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Rows of 128 and edges -/

/-- The edge at row `r`, lane `c` of the score rows. -/
def edge (r : Fin 6250) (c : Fin 128) : Fin 800000 := ⟨128 * r.val + c.val, by have := r.isLt; have := c.isLt; omega⟩

theorem edge_surj : Function.Surjective fun p : Fin 6250 × Fin 128 => edge p.1 p.2 := fun e =>
  ⟨(⟨e.val / 128, by have := e.isLt; omega⟩, ⟨e.val % 128, Nat.mod_lt _ (by decide)⟩), Fin.ext (by show 128 * (e.val / 128) + e.val % 128 = e.val; omega)⟩

/-- The least (greatest) value over rows and lanes is the least (greatest) over edges. -/
theorem iInf_rows (f : Fin 800000 → EReal) : ⨅ p : Fin 6250 × Fin 128, f (edge p.1 p.2) = ⨅ e, f e :=
  edge_surj.iInf_comp f
theorem iSup_rows (f : Fin 800000 → EReal) : ⨆ p : Fin 6250 × Fin 128, f (edge p.1 p.2) = ⨆ e, f e :=
  edge_surj.iSup_comp f

/-- Rows whose entry (r, c) is a function of edge 128 r + c, normalised by their least and greatest entries, are that
    function normalised by its least and greatest values. -/
theorem norm_rows (X : (⟨2, ![6250, 128]⟩ : Shape).Idx → EReal) (f : Fin 800000 → EReal)
    (hX : ∀ (r : Fin 6250) (cc : Fin 128), X (ix2 r cc) = f (edge r cc)) (r : Fin 6250) (cc : Fin 128) :
    Ideal.div (X (ix2 r cc) - ⨅ p : Fin 6250 × Fin 128, X (ix2 p.1 p.2))
        ((⨆ p : Fin 6250 × Fin 128, X (ix2 p.1 p.2)) - ⨅ p : Fin 6250 × Fin 128, X (ix2 p.1 p.2))
      = Ideal.div (f (edge r cc) - ⨅ e, f e) ((⨆ e, f e) - ⨅ e, f e) := by
  simp only [hX]
  rw [iInf_rows f, iSup_rows f]

/-! ## The first region's input arrays, and its table -/

theorem V1_feat (c : Dev nD) : (V1 m ρ c main_arg0 : S100000x128.Idx → EReal) = m ((c : Thread nD τ).loc main_arg0) := by
  show StableHlo.after hostOps0 (W0 m ρ c) (Proc.devRef .tc main_arg0) = _
  after_results
theorem V1_w1 (c : Dev nD) : (V1 m ρ c main_v0 : S1x128.Idx → EReal)
    = extractStridedSlice S1x128 ![0, 0] (m ((c : Thread nD τ).loc main_arg3) : S1x256.Idx → EReal) slices_S1x256_S1x128_0_0 := by
  show StableHlo.after hostOps0 (W0 m ρ c) (Proc.devRef .tc main_v0) = _
  after_results
theorem V1_w2 (c : Dev nD) : (V1 m ρ c main_v1 : S1x128.Idx → EReal)
    = extractStridedSlice S1x128 ![0, 128] (m ((c : Thread nD τ).loc main_arg3) : S1x256.Idx → EReal) slices_S1x256_S1x128_0_128 := by
  show StableHlo.after hostOps0 (W0 m ρ c) (Proc.devRef .tc main_v1) = _
  after_results

/-- The node table the first region leaves. -/
theorem table_eq (c : Dev nD) : (W2 m ρ c (Proc.devRef .tc main_v2) : S100000x2.Idx → EReal)
    = KRegion0.table (N := 100000) (m ((c : Thread nD τ).loc main_arg0) : S100000x128.Idx → EReal)
        (extractStridedSlice S1x128 ![0, 0] (m ((c : Thread nD τ).loc main_arg3) : S1x256.Idx → EReal) slices_S1x256_S1x128_0_0)
        (extractStridedSlice S1x128 ![0, 128] (m ((c : Thread nD τ).loc main_arg3) : S1x256.Idx → EReal) slices_S1x256_S1x128_0_128) := by
  refine ((W2_arr m ρ c 3).trans (KRegion0.final (V1 m ρ) c)).trans ?_
  rw [V1_feat, V1_w1, V1_w2]

/-- Column 0 of the table is a node's row against the first half of the weight row, column 1 against the second. -/
theorem table_su (h : S100000x128.Idx → EReal) (W : S1x256.Idx → EReal) (n : Fin 100000) :
    KRegion0.table (N := 100000) h (extractStridedSlice S1x128 ![0, 0] W slices_S1x256_S1x128_0_0)
      (extractStridedSlice S1x128 ![0, 128] W slices_S1x256_S1x128_0_128) (ix2 n (0 : Fin 2)) = Cert.EdgeScore.su h W n := by
  unfold KRegion0.table Cert.EdgeScore.su
  refine (if_pos (show (ix2 n (0 : Fin 2) (1 : Fin 2)).val = 0 from rfl)).trans ?_
  refine Finset.sum_congr rfl fun k _ => congrArg (h (ix2 n k) * ·) ?_
  exact extractStridedSlice_apply _ _ _ _ _ (fun a => match a with
    | ⟨0, _⟩ => rfl
    | ⟨1, _⟩ => by show k.val = 0 + k.val; omega)
theorem table_sv (h : S100000x128.Idx → EReal) (W : S1x256.Idx → EReal) (n : Fin 100000) :
    KRegion0.table (N := 100000) h (extractStridedSlice S1x128 ![0, 0] W slices_S1x256_S1x128_0_0)
      (extractStridedSlice S1x128 ![0, 128] W slices_S1x256_S1x128_0_128) (ix2 n (1 : Fin 2)) = Cert.EdgeScore.sv h W n := by
  unfold KRegion0.table Cert.EdgeScore.sv
  refine (if_neg (show ¬ (ix2 n (1 : Fin 2) (1 : Fin 2)).val = 0 from by show ¬ ((1 : Nat) = 0); decide)).trans ?_
  refine Finset.sum_congr rfl fun k _ => congrArg (h (ix2 n k) * ·) ?_
  exact extractStridedSlice_apply _ _ _ _ _ (fun a => match a with
    | ⟨0, _⟩ => rfl
    | ⟨1, _⟩ => rfl)

/-! ## The score rows, and the result -/

/-- Entry (r, c) of what the second region reads is edge 128 r + c's score. -/
theorem scores_apply (c : Dev nD) (r : Fin 6250) (cc : Fin 128) :
    (V3 m ρ c main_v25 : S6250x128.Idx → EReal) (ix2 r cc)
      = Cert.EdgeScore.score (m ((c : Thread nD τ).loc main_arg0)) (m ((c : Thread nD τ).loc main_arg1))
          (m ((c : Thread nD τ).loc main_arg2)) (m ((c : Thread nD τ).loc main_arg3)) (m ((c : Thread nD τ).loc main_arg4)) (edge r cc) := by
  rw [KHost.entry_scores, KScore.scoreRows_apply _ _ _ _ r cc (edge r cc) rfl, table_eq, table_su, table_sv]
  rfl

/-- THE KERNEL PROGRAM'S RESULT is the normalised edge scores of its arguments. -/
theorem kernel_is_G (c : Dev nD) : (W5 m ρ c (Proc.devRef .tc main_v27) : S800000x1.Idx → EReal)
    = Cert.EdgeScore.G (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨e, u, rfl⟩ : ∃ (e : Fin 800000) (u : Fin 1), i = ix2 e u := ⟨i 0, i 1, eq_ix2 i⟩
  obtain rfl : u = 0 := Subsingleton.elim _ _
  have he := e.isLt
  rw [KHost.result_eq]
  rw [shapeCast_apply _ _ (ix2 e (0 : Fin 1)) (ix2 (⟨e.val / 128, by omega⟩ : Fin 6250) (⟨e.val % 128, Nat.mod_lt _ (by decide)⟩ : Fin 128)) (by
    rw [Shape.rowMajor_val_two, Shape.rowMajor_val_two]
    show e.val / 128 * 128 + e.val % 128 = e.val * 1 + 0
    omega)]
  rw [show (W4 m ρ c (Proc.devRef .tc main_v26) : S6250x128.Idx → EReal) = _ from (W4_arr m ρ c 1).trans (KRegion1.final (V3 m ρ) c)]
  rw [KPayloads.pay_norm]
  refine (norm_rows _ _ (scores_apply m ρ c) _ _).trans ?_
  unfold Cert.EdgeScore.G Cert.EdgeScore.lo Cert.EdgeScore.hi
  refine congrArg (fun x => Ideal.div (Cert.EdgeScore.score _ _ _ _ _ x - _) _) (Fin.ext ?_)
  show 128 * (e.val / 128) + e.val % 128 = e.val
  omega

end Cert.KernelIdeal.KValue

end
-- ==== Proof.lean ====
/-
  The certificate of the edge-scoring program.

  Both programs take node features h : [100000,128], two edge lists of index words, a weight row W : [1,256] and a bias,
  and return, for each of the 800000 edges, its score — the source node's features against the first half of W plus the
  destination node's against the second half plus the bias — normalised by the least and greatest scores over all
  edges.  The reference gathers a feature row per edge endpoint and contracts it with the weight half; the kernel
  program first contracts every node's row with both halves (a [100000,2] table, one region of 20 grid points), then
  gathers one scalar per edge endpoint from the table, and normalises in a second region whose body takes row minima
  and maxima first.  On the extended reals the two are one function (`Cert.EdgeScore.G`): gathering commutes with
  the per-row contraction, and a minimum of row minima is the minimum over all entries.  No finiteness is used.

  The three frames are the generated ones (the reference's is its generated run with the result dropped); the
  idealization rewrote nothing; the algebraic claim puts the kernel program's run, with its result read back to `G`,
  beside the reference's generated run, read to `G`.
-/
import proofs.«143666_j62491774157283_2_alg».proof.Defs
import proofs.«143666_j62491774157283_2_alg».proof.Proof.Gen.Kernel
import proofs.«143666_j62491774157283_2_alg».proof.Proof.Gen.Kernel.Skeleton
import proofs.«143666_j62491774157283_2_alg».proof.Proof.Gen.Kernel.Launch
import proofs.«143666_j62491774157283_2_alg».proof.Proof.Gen.Kernel.Points
import proofs.«143666_j62491774157283_2_alg».proof.Proof.Gen.Kernel.Frame
import proofs.«143666_j62491774157283_2_alg».proof.Proof.Gen.KernelIdeal
import proofs.«143666_j62491774157283_2_alg».proof.Proof.Gen.KernelIdeal.Skeleton
import proofs.«143666_j62491774157283_2_alg».proof.Proof.Gen.KernelIdeal.Launch
import proofs.«143666_j62491774157283_2_alg».proof.Proof.Gen.KernelIdeal.Points
import proofs.«143666_j62491774157283_2_alg».proof.Proof.Gen.KernelIdeal.Frame
import proofs.«143666_j62491774157283_2_alg».proof.Proof.Gen.ReferenceIdeal
import proofs.«143666_j62491774157283_2_alg».proof.Proof.Gen.ReferenceIdeal.Run
import proofs.«143666_j62491774157283_2_alg».proof.Proof.Gen.ReferenceIdeal.Read
import proofs.«143666_j62491774157283_2_alg».proof.Proof.Gen.Pre_finite_inputs
import proofs.«143666_j62491774157283_2_alg».proof.Proof.Spec
import proofs.«143666_j62491774157283_2_alg».proof.Proof.RefSide
import proofs.«143666_j62491774157283_2_alg».proof.Proof.KRun
import proofs.«143666_j62491774157283_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the normalised edge scores of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.EdgeScore.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.kernel_is_G m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceIdeal.RefSide.ref_is_G,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
